-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64x64 : Shape := ⟨4, ![16, 2048, 64, 64]⟩
abbrev S16x128x2048 : Shape := ⟨3, ![16, 128, 2048]⟩
abbrev S16x2048x128 : Shape := ⟨3, ![16, 2048, 128]⟩
abbrev S_ : Shape := ⟨0, ![]⟩

class Facts : Prop where
  bcast_S_S16x2048x64x64 : S_.BroadcastsInDim S16x2048x64x64 (![] : Fin 0 → Fin S16x2048x64x64.rank)
  reducesTo_S16x2048x64x64_S_d0_1_2_3 : S16x2048x64x64.ReducesTo [0, 1, 2, 3] S_
  h_S_ : 0 < S_.numel
  bcast_S_S16x128x2048 : S_.BroadcastsInDim S16x128x2048 (![] : Fin 0 → Fin S16x128x2048.rank)
  reducesTo_S16x128x2048_S_d0_1_2 : S16x128x2048.ReducesTo [0, 1, 2] S_
  bcast_S_S16x2048x128 : S_.BroadcastsInDim S16x2048x128 (![] : Fin 0 → Fin S16x2048x128.rank)
  reducesTo_S16x2048x128_S_d0_1_2 : S16x2048x128.ReducesTo [0, 1, 2] S_

variable [Facts]

def fn {F : FTy → Type} [FloatOps F] (main_arg0 : FVec F S16x2048x64x64 .f32) (main_arg1 : FVec F S16x128x2048 .f32) (main_arg2 : FVec F S16x2048x128 .f32) : IVec S_ 1 :=
  let main_v0 : FVec F S16x2048x64x64 .f32 := Host.absf main_arg0
  let main_cst : FVec F S_ .f32 := constant S_ .f32 0x7F800000#32
  let main_v1 : FVec F S16x2048x64x64 .f32 := broadcastInDim S16x2048x64x64 ![] bcast_S_S16x2048x64x64 main_cst
  let main_v2 : IVec S16x2048x64x64 1 := cmpf .olt main_v0 main_v1
  let main_c : IVec S_ 1 := constantI S_ 1 1#1
  let main_v3 : IVec S_ 1 := (fun x v => Host.reduce IntOp.andi x v reducesTo_S16x2048x64x64_S_d0_1_2_3 h_S_) main_v2 main_c
  let main_v4 : FVec F S16x128x2048 .f32 := Host.absf main_arg1
  let main_cst_0 : FVec F S_ .f32 := constant S_ .f32 0x7F800000#32
  let main_v5 : FVec F S16x128x2048 .f32 := broadcastInDim S16x128x2048 ![] bcast_S_S16x128x2048 main_cst_0
  let main_v6 : IVec S16x128x2048 1 := cmpf .olt main_v4 main_v5
  let main_c_1 : IVec S_ 1 := constantI S_ 1 1#1
  let main_v7 : IVec S_ 1 := (fun x v => Host.reduce IntOp.andi x v reducesTo_S16x128x2048_S_d0_1_2 h_S_) main_v6 main_c_1
  let main_v8 : IVec S_ 1 := andi main_v3 main_v7
  let main_v9 : FVec F S16x2048x128 .f32 := Host.absf main_arg2
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_c_3 : IVec S_ 1 := constantI S_ 1 1#1
  let main_v12 : IVec S_ 1 := (fun x v => Host.reduce IntOp.andi x v reducesTo_S16x2048x128_S_d0_1_2 h_S_) main_v11 main_c_3
  let main_v13 : IVec S_ 1 := andi main_v8 main_v12
  main_v13
-- ==== Kernel.lean ====
abbrev S16x2048x64x64 : Shape := ⟨4, ![16, 2048, 64, 64]⟩
abbrev S16x128x2048 : Shape := ⟨3, ![16, 128, 2048]⟩
abbrev S16x2048x128 : Shape := ⟨3, ![16, 2048, 128]⟩
abbrev S2048x16 : Shape := ⟨2, ![2048, 16]⟩
abbrev S16x64x16x64 : Shape := ⟨4, ![16, 64, 16, 64]⟩
abbrev S64x16 : Shape := ⟨2, ![64, 16]⟩
abbrev S16x64x16 : Shape := ⟨3, ![16, 64, 16]⟩
abbrev S16x64 : Shape := ⟨2, ![16, 64]⟩
abbrev S16x2048 : Shape := ⟨2, ![16, 2048]⟩
abbrev S16x16x2048 : Shape := ⟨3, ![16, 16, 2048]⟩
abbrev S1x128x2048 : Shape := ⟨3, ![1, 128, 2048]⟩
abbrev S1x2048x128 : Shape := ⟨3, ![1, 2048, 128]⟩
abbrev S1x16x2048 : Shape := ⟨3, ![1, 16, 2048]⟩
abbrev S128x2048 : Shape := ⟨2, ![128, 2048]⟩
abbrev S2048x128 : Shape := ⟨2, ![2048, 128]⟩
abbrev S16x128 : Shape := ⟨2, ![16, 128]⟩
abbrev S16x16x2048x1x1 : Shape := ⟨5, ![16, 16, 2048, 1, 1]⟩

abbrev nBuf : Space → Nat
  | .hbm => 7
  | .vmem => 11
  | .smem => 0
  | _ => 0

abbrev bufTy : (tb : Table) → Fin (tcTables nBuf tb) → BufTy
  | .hbm, ⟨0, _⟩ => ⟨S16x2048x64x64, .f32⟩
  | .hbm, ⟨1, _⟩ => ⟨S16x128x2048, .f32⟩
  | .hbm, ⟨2, _⟩ => ⟨S16x2048x128, .f32⟩
  | .hbm, ⟨3, _⟩ => ⟨S2048x16, .f32⟩
  | .hbm, ⟨4, _⟩ => ⟨S16x2048, .f32⟩
  | .hbm, ⟨5, _⟩ => ⟨S16x16x2048, .f32⟩
  | .hbm, ⟨6, _⟩ => ⟨S16x16x2048x1x1, .f32⟩
  | .local _ .vmem, ⟨0, _⟩ => ⟨S16x64x16x64, .f32⟩
  | .local _ .vmem, ⟨1, _⟩ => ⟨S16x64x16x64, .f32⟩
  | .local _ .vmem, ⟨2, _⟩ => ⟨S64x16, .f32⟩
  | .local _ .vmem, ⟨3, _⟩ => ⟨S64x16, .f32⟩
  | .local _ .vmem, ⟨4, _⟩ => ⟨S16x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x2048x128, .f32⟩
  | .local _ .vmem, ⟨8, _⟩ => ⟨S1x2048x128, .f32⟩
  | .local _ .vmem, ⟨9, _⟩ => ⟨S1x16x2048, .f32⟩
  | .local _ .vmem, ⟨10, _⟩ => ⟨S1x16x2048, .f32⟩
  | _, _ => ⟨S16x2048x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, arg0.toNat, c1_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x64x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S16x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x16x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  iota_S16x64x16x64_d3_w32 : S16x64x16x64.Iotas .tc 32 [3]
  inb_S16x64x16x64_S16x64x16x64_0_0_0_0 : ∀ a, (![0, 0, 0, 0] : Fin 4 → Nat) a + S16x64x16x64.size a ≤ S16x64x16x64.size a
  h_S16x64x16x64 : 0 < S16x64x16x64.numel
  reduces_S16x64x16x64_S16x64x16 : S16x64x16x64.Reduces [3] S16x64x16
  reduces_S16x64x16_S16x64 : S16x64x16.Reduces [2] S16x64
  transposes_S16x64_p1_0_S64x16 : S16x64.Transposes [1, 0] S64x16
  inb_S64x16_S64x16_0_0 : ∀ a, (![0, 0] : Fin 2 → Nat) a + S64x16.size a ≤ S64x16.size a
  h_S64x16 : 0 < S64x16.numel
  transposes_S2048x16_S16x2048_1_0 : S2048x16.Transposes [1, 0] S16x2048
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  bitsLt_bf16_f32 : FTy.bits .bf16 < FTy.bits .f32
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  transposes_S128x2048_p1_0_S2048x128 : S128x2048.Transposes [1, 0] S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  transposes_S2048x128_p1_0_S128x2048 : S2048x128.Transposes [1, 0] S128x2048
  inb_S1x16x2048_S1x16x2048_0_0_0 : ∀ a, (![0, 0, 0] : Fin 3 → Nat) a + S1x16x2048.size a ≤ S1x16x2048.size a
  h_S1x16x2048 : 0 < S1x16x2048.numel
  shapeCasts_S1x16x2048_S16x2048 : S1x16x2048.ShapeCasts S16x2048
  shapeCasts_S16x2048_S1x16x2048 : S16x2048.ShapeCasts S1x16x2048
  bcast_S16x16x2048_S16x16x2048x1x1_0_1_2 : S16x16x2048.BroadcastsInDim S16x16x2048x1x1 (![0, 1, 2] : Fin 3 → Fin S16x16x2048x1x1.rank)
  dot_S16x2048_S2048x128_S16x128_1_0_0_1_n_n_wf : DotDims.WF S16x2048 S2048x128 S16x128 [1] [0] [0] [1] [] []
  dot_S16x128_S128x2048_S16x2048_1_0_0_1_n_n_wf : DotDims.WF S16x128 S128x2048 S16x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x16x64.size a ≤ S16x2048x64x64.size a
  hwx0_0 : ∀ i : grid0.Coords, EltTy.bits .f32 = 32 ∨ (Rect.block (s := S16x2048x64x64) S16x64x16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S2048x16.size a
  hwx0_1 : ∀ i : grid0.Coords, EltTy.bits .f32 = 32 ∨ (Rect.block (s := S2048x16) S64x16.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16x2048.size a ≤ S16x2048.size a
  hwx1_0 : ∀ i : grid1.Coords, EltTy.bits .f32 = 32 ∨ (Rect.block (s := S16x2048) S16x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x2048.size a ≤ S16x128x2048.size a
  hwx1_1 : ∀ i : grid1.Coords, EltTy.bits .f32 = 32 ∨ (Rect.block (s := S16x128x2048) S1x128x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S16x2048x128.size a
  hwx1_2 : ∀ i : grid1.Coords, EltTy.bits .f32 = 32 ∨ (Rect.block (s := S16x2048x128) S1x2048x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x2048.size a ≤ S16x16x2048.size a
  hwx1_3 : ∀ i : grid1.Coords, EltTy.bits .f32 = 32 ∨ (Rect.block (s := S16x16x2048) S1x16x2048.size (cc1_transform_3 i) (hinb1_3 i)).WholeWords (EltTy.packing .f32)

variable [Facts₀]

def dot_S16x2048_S2048x128_S16x128_1_0_0_1_n_n : DotDims S16x2048 S2048x128 S16x128 where
  lhsContracting := [1]
  rhsContracting := [0]
  lhsNonContracting := [0]
  rhsNonContracting := [1]
  lhsBatch := []
  rhsBatch := []
  wf := dot_S16x2048_S2048x128_S16x128_1_0_0_1_n_n_wf
def dot_S16x128_S128x2048_S16x2048_1_0_0_1_n_n : DotDims S16x128 S128x2048 S16x2048 where
  lhsContracting := [1]
  rhsContracting := [0]
  lhsNonContracting := [0]
  rhsNonContracting := [1]
  lhsBatch := []
  rhsBatch := []
  wf := dot_S16x128_S128x2048_S16x2048_1_0_0_1_n_n_wf

abbrev win0_0 : Pipeline.Window sig grid0 :=
  Pipeline.Window.ofSpec (Memref.whole main_arg0) S16x64x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S16x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x128x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x16x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x2048x64x64 : Shape := ⟨4, ![16, 2048, 64, 64]⟩
abbrev S16x128x2048 : Shape := ⟨3, ![16, 128, 2048]⟩
abbrev S16x2048x128 : Shape := ⟨3, ![16, 2048, 128]⟩
abbrev S16x2048x16x16 : Shape := ⟨4, ![16, 2048, 16, 16]⟩
abbrev S_ : Shape := ⟨0, ![]⟩
abbrev S16x2048 : Shape := ⟨2, ![16, 2048]⟩
abbrev S16x16x128 : Shape := ⟨3, ![16, 16, 128]⟩
abbrev S16x16x2048 : Shape := ⟨3, ![16, 16, 2048]⟩
abbrev S16x16x2048x1x1 : Shape := ⟨5, ![16, 16, 2048, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S16x2048x64x64, .f32⟩
  | .hbm, ⟨1, _⟩ => ⟨S16x128x2048, .f32⟩
  | .hbm, ⟨2, _⟩ => ⟨S16x2048x128, .f32⟩
  | .hbm, ⟨3, _⟩ => ⟨S16x2048x16x16, .f32⟩
  | .hbm, ⟨4, _⟩ => ⟨S_, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S16x16x128, .f32⟩
  | .hbm, ⟨10, _⟩ => ⟨S16x16x128, .f32⟩
  | .hbm, ⟨11, _⟩ => ⟨S_, .f32⟩
  | .hbm, ⟨12, _⟩ => ⟨S16x16x128, .f32⟩
  | .hbm, ⟨13, _⟩ => ⟨S16x16x128, .f32⟩
  | .hbm, ⟨14, _⟩ => ⟨S16x16x2048, .f32⟩
  | .hbm, ⟨15, _⟩ => ⟨S16x16x2048, .f32⟩
  | .hbm, ⟨16, _⟩ => ⟨S16x16x2048, .f32⟩
  | .hbm, ⟨17, _⟩ => ⟨S_, .f32⟩
  | .hbm, ⟨18, _⟩ => ⟨S16x16x2048, .f32⟩
  | .hbm, ⟨19, _⟩ => ⟨S16x16x2048, .f32⟩
  | .hbm, ⟨20, _⟩ => ⟨S_, .f32⟩
  | .hbm, ⟨21, _⟩ => ⟨S16x16x2048, .f32⟩
  | .hbm, ⟨22, _⟩ => ⟨S16x16x2048, .f32⟩
  | .hbm, ⟨23, _⟩ => ⟨S16x16x2048x1x1, .f32⟩
  | _, _ => ⟨S16x2048x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  slices_S16x2048x64x64_S16x2048x16x16_0_0_16_16 : S16x2048x64x64.Slices ![0, 0, 16, 16] S16x2048x16x16
  reducesTo_S16x2048x16x16_S16x2048_d2_3 : S16x2048x16x16.ReducesTo [2, 3] S16x2048
  h_S_ : 0 < S_.numel
  bcast_S_S16x2048 : S_.BroadcastsInDim S16x2048 (![] : Fin 0 → Fin S16x2048.rank)
  transposes_S16x16x128_S16x16x128_1_0_2 : S16x16x128.Transposes [1, 0, 2] S16x16x128
  bcast_S_S16x16x128 : S_.BroadcastsInDim S16x16x128 (![] : Fin 0 → Fin S16x16x128.rank)
  bcast_S_S16x16x2048 : S_.BroadcastsInDim S16x16x2048 (![] : Fin 0 → Fin S16x16x2048.rank)
  bcast_S16x16x2048_S16x16x2048x1x1_0_1_2 : S16x16x2048.BroadcastsInDim S16x16x2048x1x1 (![0, 1, 2] : Fin 3 → Fin S16x16x2048x1x1.rank)
  dot_S16x2048_S16x128x2048_S16x16x128_1_2_0_01_n_n_wf : DotDims.WF S16x2048 S16x128x2048 S16x16x128 [1] [2] [0] [0, 1] [] []
  dot_S16x16x128_S16x2048x128_S16x16x2048_2_2_1_1_0_0_wf : DotDims.WF S16x16x128 S16x2048x128 S16x16x2048 [2] [2] [1] [1] [0] [0]

variable [Facts₀]

def dot_S16x2048_S16x128x2048_S16x16x128_1_2_0_01_n_n : DotDims S16x2048 S16x128x2048 S16x16x128 where
  lhsContracting := [1]
  rhsContracting := [2]
  lhsNonContracting := [0]
  rhsNonContracting := [0, 1]
  lhsBatch := []
  rhsBatch := []
  wf := dot_S16x2048_S16x128x2048_S16x16x128_1_2_0_01_n_n_wf
def dot_S16x16x128_S16x2048x128_S16x16x2048_2_2_1_1_0_0 : DotDims S16x16x128 S16x2048x128 S16x16x2048 where
  lhsContracting := [2]
  rhsContracting := [2]
  lhsNonContracting := [1]
  rhsNonContracting := [1]
  lhsBatch := [0]
  rhsBatch := [0]
  wf := dot_S16x16x128_S16x2048x128_S16x16x2048_2_2_1_1_0_0_wf

class Facts : Prop extends Facts₀ where

variable [Facts]
-- ==== Proof.KernelRun.lean ====
/-
  The idealized kernel program run from the launch to the return, with its RESULT named.

  The program is two kernel regions (the pooling call, then the perceptron call) separated by one host transpose and
  followed by one host broadcast.  Every weakly fair execution terminates without a fault, and in the final state
  every buffer that outlives the regions holds the contents at the last boundary of the chain

      launch memory  →  after the pooling region  →  after the transpose  →  after the perceptron region
                     →  after the broadcast,

  each boundary obtained from the one before it by the region's write-backs or by the host operations.  In
  particular the result buffer holds the last boundary's contents there, and the three arguments are as launched.
-/
import proofs.«167519_j57028575756391_1_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The run with the result buffer and the arguments picked out of the last boundary's contents. -/
theorem run_result : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)
    (run_all m ρ)

end Cert.KernelRun

end
-- ==== Proof.Spec.lean ====
/-
  The function both programs compute, on the extended reals, entry by entry.

  For a batch entry `b` and a channel `c`, the pooled value is the mean of the 16 × 16 patch of the 64 × 64 feature
  map `x(b, c, ·, ·)` that lies in rows 16..31 and columns 16..31: the sum of its 256 entries times 1/256.
  For each of the 16 blocks `p`, a two-layer perceptron without bias is applied to the pooled vector of every batch
  entry: `h(p, b, k) = max (Σ_c y(b, c) · W1(p, k, c)) 0` and
  `att(p, b, c) = logistic (Σ_k h(p, b, k) · W2(p, c, k))`, where `logistic z = 1 / (1 + e^(-z))` with the
  conventions of the extended reals at the infinities.  The result array [16, 16, 2048, 1, 1] holds `att(p, b, c)`
  at `(p, b, c, 0, 0)`.

  Sums on the extended reals are sums in a commutative monoid, so they may be regrouped and reordered freely; no
  finiteness of the entries is used anywhere.
-/
import Idealize.ShloMosaic.PureOps.Ideal
import Idealize.ShloMosaic.Lib.ValueIdx

noncomputable section

namespace Cert.Spec

open Idealize.ShloMosaic Idealize.ShloMosaic.ValueIdx

/-- Row (or column) `16 + r` of the 64 of a feature map: the pooled patch is rows 16..31 and columns 16..31. -/
abbrev patch (r : Fin 16) : Fin 64 := ⟨16 + r.val, by have := r.isLt; omega⟩

/-- The mean of the 16 × 16 patch of feature map `(b, c)`: the sum of its 256 entries times 1/256. -/
def pooled (x : (⟨4, ![16, 2048, 64, 64]⟩ : Shape).Idx → EReal) (b : Fin 16) (c : Fin 2048) : EReal :=
  (∑ r : Fin 16, ∑ w : Fin 16, x (ix4 b c (patch r) (patch w))) * ((1 / 256 : ℝ) : EReal)

/-- The pooled means as an array [16, 2048]. -/
def pooledArr (x : (⟨4, ![16, 2048, 64, 64]⟩ : Shape).Idx → EReal) : (⟨2, ![16, 2048]⟩ : Shape).Idx → EReal :=
  fun i => pooled x (i 0) (i 1)

/-- The hidden layer of block `p` on the pooled vector of batch entry `b`: `max (Σ_c y(b, c) · W1(p, k, c)) 0`. -/
def hidden (y : (⟨2, ![16, 2048]⟩ : Shape).Idx → EReal) (w1 : (⟨3, ![16, 128, 2048]⟩ : Shape).Idx → EReal)
    (p b : Fin 16) (k : Fin 128) : EReal :=
  max (∑ c : Fin 2048, y (ix2 b c) * w1 (ix3 p k c)) 0

/-- The attention weight of block `p`, batch entry `b`, channel `c`: `logistic (Σ_k h(p, b, k) · W2(p, c, k))`. -/
def att (y : (⟨2, ![16, 2048]⟩ : Shape).Idx → EReal) (w1 : (⟨3, ![16, 128, 2048]⟩ : Shape).Idx → EReal)
    (w2 : (⟨3, ![16, 2048, 128]⟩ : Shape).Idx → EReal) (p b : Fin 16) (c : Fin 2048) : EReal :=
  Ideal.logistic (∑ k : Fin 128, hidden y w1 p b k * w2 (ix3 p c k))

/-- The attention weights as an array [16, 16, 2048]. -/
def attArr (y : (⟨2, ![16, 2048]⟩ : Shape).Idx → EReal) (w1 : (⟨3, ![16, 128, 2048]⟩ : Shape).Idx → EReal)
    (w2 : (⟨3, ![16, 2048, 128]⟩ : Shape).Idx → EReal) : (⟨3, ![16, 16, 2048]⟩ : Shape).Idx → EReal :=
  fun i => att y w1 w2 (i 0) (i 1) (i 2)

/-- The result array [16, 16, 2048, 1, 1]: `att(p, b, c)` of the pooled means at `(p, b, c, 0, 0)`. -/
def result (x : (⟨4, ![16, 2048, 64, 64]⟩ : Shape).Idx → EReal) (w1 : (⟨3, ![16, 128, 2048]⟩ : Shape).Idx → EReal)
    (w2 : (⟨3, ![16, 2048, 128]⟩ : Shape).Idx → EReal) : (⟨5, ![16, 16, 2048, 1, 1]⟩ : Shape).Idx → EReal :=
  fun i => att (pooledArr x) w1 w2 (i 0) (i 1) (i 2)

/-- The pattern `0x3B800000` is the f32 number 2⁻⁸ = 1/256. -/
theorem ofBits_inv256 : Ideal.ofBits .f32 0x3B800000#32 = ((1 / 256 : ℝ) : EReal) := by
  simp [Ideal.ofBits, Ideal.ieee, -EReal.coe_mul]; norm_num

/-- The pattern `0x43800000` is the f32 number 256. -/
theorem ofBits_256 : Ideal.ofBits .f32 0x43800000#32 = ((256 : ℝ) : EReal) := by
  simp [Ideal.ofBits, Ideal.ieee, -EReal.coe_mul]; norm_num

/-- The pattern `0x3F800000` is the f32 number 1. -/
theorem ofBits_one : Ideal.ofBits .f32 0x3F800000#32 = 1 := by
  simp [Ideal.ofBits, Ideal.ieee, -EReal.coe_mul]; norm_num

/-- The pattern `0x00000000` is the f32 number 0. -/
theorem ofBits_zero : Ideal.ofBits .f32 0x00000000#32 = 0 := by
  simp [Ideal.ofBits, Ideal.ieee]

/-- Dividing by 256 is multiplying by 1/256, at the infinities too. -/
theorem div_256 (s : EReal) : Ideal.div s ((256 : ℝ) : EReal) = s * ((1 / 256 : ℝ) : EReal) :=
  Ideal.div_coe (by norm_num) s

end Cert.Spec

end
-- ==== Proof.LibBatchOps.lean ====
/-
  Rank-3 arrays [n0, n1, n2] of extended reals read at an index (b, q, l): reductions over ONE of the two inner
  axes, and a reduced array kept as a unit axis and broadcast back.

  * A maximum taken from −∞ over the middle axis is, at (b, l), the fold of `max` from −∞ over the entries (b, q, l).
  * A sum over the middle axis is, at (b, l), the sum over `q` of the entries (b, q, l); a sum over the last axis is,
    at (b, q), the sum over `l`.
  * An array [n0, n2] viewed as [n0, 1, n2] and broadcast to [n0, n1, n2] reads, at (b, q, l), the entry (b, l);
    an array [n0, n1] viewed as [n0, n1, 1] and broadcast to [n0, n1, n2] reads, at (b, q, l), the entry (b, q).
-/
import Idealize.ShloMosaic.Lib.ValueIdx
import Idealize.ShloMosaic.Lib.Pipeline.Value
import Idealize.ShloMosaic.PureOps.Ideal.Laws

noncomputable section

namespace Cert.BatchOps

open Idealize.ShloMosaic Idealize.ShloMosaic.ValueIdx

/-- The maximum over the middle axis, from −∞: at (b, l) the fold of `max` over the entries (b, q, l). -/
theorem max_axis1_apply {n0 n1 n2 : ℕ} (src : FVec Ideal ⟨3, ![n0, n1, n2]⟩ .f32)
    (h : (⟨3, ![n0, n1, n2]⟩ : Shape).Reduces [1] ⟨2, ![n0, n2]⟩) (hφ : FKind.Formats .f32)
    (hacc : (0xFF800000#32 : BitVec 32) = 0xFF800000#32) (b : Fin n0) (l : Fin n2) :
    multiReduction .maximumf [1] ⟨2, ![n0, n2]⟩ src 0xFF800000#32 h hφ hacc (ix2 b l)
      = (Finset.univ : Finset (Fin n1)).fold max (Ideal.ofBits .f32 0xFF800000#32) (fun q => src (ix3 b q l)) :=
  (Ideal.multiReduction_maximumf_single src 0xFF800000#32 h hφ hacc (ix2 b l)).trans
    (Finset.fold_congr fun q _ => congrArg src (funext fun ax => Fin.ext (by
      match ax with
      | ⟨0, _⟩ => rfl
      | ⟨1, _⟩ => rfl
      | ⟨2, _⟩ => rfl)))

/-- The sum over the middle axis: at (b, l) the sum over `q` of the entries (b, q, l). -/
theorem sum_axis1_apply {n0 n1 n2 : ℕ} (src : FVec Ideal ⟨3, ![n0, n1, n2]⟩ .f32)
    (h : (⟨3, ![n0, n1, n2]⟩ : Shape).Reduces [1] ⟨2, ![n0, n2]⟩) (hφ : FKind.Formats .f32)
    (hacc : (0x00000000#32 : BitVec 32) = 0x00000000#32) (b : Fin n0) (l : Fin n2) :
    multiReduction .add [1] ⟨2, ![n0, n2]⟩ src 0x00000000#32 h hφ hacc (ix2 b l)
      = ∑ q : Fin n1, src (ix3 b q l) :=
  (Ideal.multiReduction_add_single src 0x00000000#32 h hφ hacc (ix2 b l)).trans
    (Finset.sum_congr rfl fun q _ => congrArg src (funext fun ax => Fin.ext (by
      match ax with
      | ⟨0, _⟩ => rfl
      | ⟨1, _⟩ => rfl
      | ⟨2, _⟩ => rfl)))

/-- The sum over the last axis: at (b, q) the sum over `l` of the entries (b, q, l). -/
theorem sum_axis2_apply {n0 n1 n2 : ℕ} (src : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec 32) = 0x00000000#32) (b : Fin n0) (q : Fin n1) :
    multiReduction .add [2] ⟨2, ![n0, n1]⟩ src 0x00000000#32 h hφ hacc (ix2 b q)
      = ∑ l : Fin n2, src (ix3 b q l) :=
  (Ideal.multiReduction_add_single src 0x00000000#32 h hφ hacc (ix2 b q)).trans
    (Finset.sum_congr rfl fun l _ => congrArg src (funext fun ax => Fin.ext (by
      match ax with
      | ⟨0, _⟩ => rfl
      | ⟨1, _⟩ => rfl
      | ⟨2, _⟩ => rfl)))

variable {α : Type}

/-- [n0, n2] kept as [n0, 1, n2] and broadcast along the middle axis: at (b, q, l) the entry (b, l). -/
theorem keep_axis1_apply {n0 n1 n2 : ℕ} (v : (⟨2, ![n0, n2]⟩ : Shape).Idx → α)
    (h1 : (⟨2, ![n0, n2]⟩ : Shape).ShapeCasts ⟨3, ![n0, 1, n2]⟩)
    (h2 : (⟨3, ![n0, 1, n2]⟩ : Shape).Broadcasts ⟨3, ![n0, n1, n2]⟩) (b : Fin n0) (q : Fin n1) (l : Fin n2) :
    broadcastTo ⟨3, ![n0, n1, n2]⟩ (shapeCast ⟨3, ![n0, 1, n2]⟩ v h1) h2 (ix3 b q l) = v (ix2 b l) := by
  refine (broadcastTo_apply _ h2 (ix3 b q l) (ix3 b (0 : Fin 1) l) fun ax => ?_).trans ?_
  · match ax with
    | ⟨0, _⟩ =>
      show b.val = if n0 = 1 then 0 else b.val
      split
      · have := b.isLt; omega
      · rfl
    | ⟨1, _⟩ => rfl
    | ⟨2, _⟩ =>
      show l.val = if n2 = 1 then 0 else l.val
      split
      · have := l.isLt; omega
      · rfl
  · refine shapeCast_apply v h1 (ix3 b (0 : Fin 1) l) (ix2 b l) ?_
    rw [Shape.rowMajor_val_two, Shape.rowMajor_val_three]
    show b.val * n2 + l.val = (b.val * 1 + 0) * n2 + l.val
    rw [Nat.mul_one, Nat.add_zero]

/-- [n0, n1] kept as [n0, n1, 1] and broadcast along the last axis: at (b, q, l) the entry (b, q). -/
theorem keep_axis2_apply {n0 n1 n2 : ℕ} (v : (⟨2, ![n0, n1]⟩ : Shape).Idx → α)
    (h1 : (⟨2, ![n0, n1]⟩ : Shape).ShapeCasts ⟨3, ![n0, n1, 1]⟩)
    (h2 : (⟨3, ![n0, n1, 1]⟩ : Shape).Broadcasts ⟨3, ![n0, n1, n2]⟩) (b : Fin n0) (q : Fin n1) (l : Fin n2) :
    broadcastTo ⟨3, ![n0, n1, n2]⟩ (shapeCast ⟨3, ![n0, n1, 1]⟩ v h1) h2 (ix3 b q l) = v (ix2 b q) := by
  refine (broadcastTo_apply _ h2 (ix3 b q l) (ix3 b q (0 : Fin 1)) fun ax => ?_).trans ?_
  · match ax with
    | ⟨0, _⟩ =>
      show b.val = if n0 = 1 then 0 else b.val
      split
      · have := b.isLt; omega
      · rfl
    | ⟨1, _⟩ =>
      show q.val = if n1 = 1 then 0 else q.val
      split
      · have := q.isLt; omega
      · rfl
    | ⟨2, _⟩ => rfl
  · refine shapeCast_apply v h1 (ix3 b q (0 : Fin 1)) (ix2 b q) ?_
    rw [Shape.rowMajor_val_two, Shape.rowMajor_val_three]
    show b.val * n1 + q.val = (b.val * n1 + q.val) * 1 + 0
    omega

end Cert.BatchOps

end
-- ==== Proof.PoolValue.lean ====
/-
  The first kernel region, the average pooling, read as one function of the array it is given.

  The region's grid has 32 points.  Point `t` is handed the block of the input [16, 2048, 64, 64] made of all 16 batch
  entries, channels `64 t .. 64 t + 63`, rows `16 .. 31` and all 64 columns, and writes block `t`, channels
  `64 t .. 64 t + 63` by all 16 batch entries, of the output [2048, 16].  Its body keeps the columns `16 .. 31` of every
  row and replaces the others by zero, sums each row over its 64 columns, sums the 16 rows, multiplies by the f32
  number 2⁻⁸ = 1/256, and transposes.  A sum over 64 columns of a function that vanishes outside the window
  `16 .. 31` is the sum over the 16 columns of the window, so the body stores, at `(c, b)`, the sum of the 256
  entries of the patch of feature map `(b, c)` times 1/256: its mean.  The 32 blocks tile the output array, so after
  the region it holds the pooled means of the input array as the region found it, channel-major.
-/
import proofs.«167519_j57028575756391_1_alg».proof.Proof.Gen.KernelIdeal.Frame
import proofs.«167519_j57028575756391_1_alg».proof.Proof.Spec
import proofs.«167519_j57028575756391_1_alg».proof.Proof.LibBatchOps
import Idealize.ShloMosaic.Lib.FinSumWindow
import Idealize.ShloMosaic.Lib.ValueIdx
import Idealize.ShloMosaic.Lib.ValueLayout
import Idealize.ShloMosaic.Lib.Pipeline.Value
import Idealize.ShloMosaic.PureOps.Ideal.Laws

noncomputable section

namespace Cert.PoolValue

open Cert.KernelIdeal Cert.KernelIdeal.Gen Idealize.ShloMosaic Idealize.ShloMosaic.TcCoe Idealize.SL.Sem
open Idealize.ShloMosaic.ValueIdx

/-- The lane mask of the pooling body: lane `w` of the 64 is kept exactly when `16 ≤ w < 32`. -/
theorem mask_bit : ∀ w : Fin 64,
    IntOp.andi (IntOp.cmpi .sge (BitVec.ofNat 32 w.val) 16#32) (IntOp.cmpi .slt (BitVec.ofNat 32 w.val) 32#32)
      = if 16 ≤ w.val ∧ w.val < 32 then 1#1 else 0#1 := by decide

/-- The sum over the last axis of a rank-4 array: at (a, b, c) the sum over `l` of the entries (a, b, c, l). -/
theorem sum_axis3_apply {n0 n1 n2 n3 : ℕ} (src : FVec Ideal ⟨4, ![n0, n1, n2, n3]⟩ .f32)
    (h : (⟨4, ![n0, n1, n2, n3]⟩ : Shape).Reduces [3] ⟨3, ![n0, n1, n2]⟩) (hφ : FKind.Formats .f32)
    (hacc : (0x00000000#32 : BitVec 32) = 0x00000000#32) (a : Fin n0) (b : Fin n1) (c : Fin n2) :
    multiReduction .add [3] ⟨3, ![n0, n1, n2]⟩ src 0x00000000#32 h hφ hacc (ix3 a b c)
      = ∑ l : Fin n3, src (ix4 a b c l) :=
  (Ideal.multiReduction_add_single src 0x00000000#32 h hφ hacc (ix3 a b c)).trans
    (Finset.sum_congr rfl fun l _ => congrArg src (funext fun ax => Fin.ext (by
      match ax with
      | ⟨0, _⟩ => rfl
      | ⟨1, _⟩ => rfl
      | ⟨2, _⟩ => rfl
      | ⟨3, _⟩ => rfl)))

/-- What the body stores, at `(c, b)` of its [64, 16] block: the sum over the 16 rows and the 16 columns of the
    window of the block's feature map `(b, c)`, times 1/256. -/
theorem pay_apply (x0 : Vec Ideal S16x64x16x64 .f32) (cc : Fin 64) (b : Fin 16) :
    k0_pay1 x0 (ix2 cc b)
      = (∑ r : Fin 16, ∑ w : Fin 16, x0 (ix4 b cc r (Cert.Spec.patch w))) * ((1 / 256 : ℝ) : EReal) := by
  unfold k0_pay1
  refine (transpose_ix2_apply _ _ cc b).trans ?_
  refine (mulf_apply _ _ _).trans ?_
  refine (congrArg (_ * ·) ((broadcast_apply _ _).trans Cert.Spec.ofBits_inv256)).trans ?_
  refine congrArg (· * _) ?_
  refine (Cert.BatchOps.sum_axis2_apply _ _ _ _ b cc).trans ?_
  refine Finset.sum_congr rfl fun r _ => ?_
  refine (sum_axis3_apply _ _ _ _ b cc r).trans ?_
  refine (FinSumWindow.sum_window (N := 64) (W := 16) 16 (by norm_num) _ fun w hw => ?_).trans ?_
  · refine (select_apply _ _ _ _).trans ?_
    show Scalar.select (IntOp.andi (IntOp.cmpi .sge (iota Kind.tc S16x64x16x64 32 [3] iota_S16x64x16x64_d3_w32 (ix4 b cc r w)) 16#32)
      (IntOp.cmpi .slt (iota Kind.tc S16x64x16x64 32 [3] iota_S16x64x16x64_d3_w32 (ix4 b cc r w)) 32#32)) _ _ = _
    rw [iota_single_apply]
    show Scalar.select (IntOp.andi (IntOp.cmpi .sge (BitVec.ofNat 32 w.val) 16#32) (IntOp.cmpi .slt (BitVec.ofNat 32 w.val) 32#32)) _ _ = _
    rw [mask_bit w, if_neg hw, select_zero]
    exact Cert.Spec.ofBits_zero
  · refine Finset.sum_congr rfl fun w _ => ?_
    refine (select_apply _ _ _ _).trans ?_
    show Scalar.select (IntOp.andi (IntOp.cmpi .sge (iota Kind.tc S16x64x16x64 32 [3] iota_S16x64x16x64_d3_w32 (ix4 b cc r (Cert.Spec.patch w))) 16#32)
      (IntOp.cmpi .slt (iota Kind.tc S16x64x16x64 32 [3] iota_S16x64x16x64_d3_w32 (ix4 b cc r (Cert.Spec.patch w))) 32#32)) _ _ = _
    rw [iota_single_apply]
    show Scalar.select (IntOp.andi (IntOp.cmpi .sge (BitVec.ofNat 32 (Cert.Spec.patch w).val) 16#32) (IntOp.cmpi .slt (BitVec.ofNat 32 (Cert.Spec.patch w).val) 32#32)) _ _ = _
    rw [mask_bit (Cert.Spec.patch w), if_pos ⟨by show 16 ≤ 16 + w.val; omega, by show 16 + w.val < 32; have := w.isLt; omega⟩, select_one]

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The pooled means laid out channel-major, as the pooling region writes them: entry `(c, b)` of the [2048, 16]
    array is the mean of the patch of feature map `(b, c)`. -/
def pooledT (x : S16x2048x64x64.Idx → EReal) : S2048x16.Idx → EReal := fun i => Cert.Spec.pooled x (i 1) (i 0)

/-- The block indices of the two windows at grid point `t`: the input block is all 16 batch entries, channels
    `64 t .. 64 t + 63`, rows `16 .. 31`, all 64 columns; the output block is channels `64 t .. 64 t + 63`, all 16
    batch entries. -/
theorem idx_facts : ∀ t : Fin cfg0.N, win0_0.index t (0 : Fin 4) = 0 ∧ win0_0.index t (1 : Fin 4) = t.val
    ∧ win0_0.index t (2 : Fin 4) = 1 ∧ win0_0.index t (3 : Fin 4) = 0
    ∧ win0_1.index t (0 : Fin 2) = t.val ∧ win0_1.index t (1 : Fin 2) = 0 :=
  (by decide +kernel : ∀ t : Fin grid0.N, _)

/-- What grid point `t` writes back is its block of the channel-major pooled means of the input array. -/
theorem flushed_eq (c : Dev nD) (t : Fin cfg0.N) :
    (dat0 (F := Ideal) V c).flushed 1 t = ((cfg0.win 1).blk t).view.read (Elt Ideal) (pooledT (V c main_arg0)) := by
  show (cfg0.win 1).cut (grid0.coords t) ((dat0 V c).after 1 t) = _
  rw [after0_1]
  unfold out0_1
  rw [View.canon_unit_zero hz2]
  simp only [View.ld_unit_zero (S := S16x64x16x64) hz4]
  obtain ⟨e0, e1, e2, e3, e4, e5⟩ := idx_facts t
  funext j
  obtain ⟨cc, b, rfl⟩ : ∃ (cc : Fin 64) (b : Fin 16), j = ix2 cc b := ⟨j 0, j 1, eq_ix2 j⟩
  show k0_pay1 (iblk0 V c 0 t) (ix2 cc b) = pooledT (V c main_arg0) (((cfg0.win 1).blk t).view.emb (ix2 cc b))
  refine (pay_apply (iblk0 V c 0 t) cc b).trans ?_
  unfold pooledT Cert.Spec.pooled
  refine congrArg (· * _) (Finset.sum_congr rfl fun r _ => Finset.sum_congr rfl fun w _ => ?_)
  show V c main_arg0 (((cfg0.win 0).blk t).view.emb (ix4 b cc r (Cert.Spec.patch w))) = V c main_arg0 _
  refine congrArg _ (funext fun a => Fin.ext ?_)
  match a with
  | ⟨0, _⟩ => show win0_0.index t (0 : Fin 4) * 16 + 1 * b.val = win0_1.index t (1 : Fin 2) * 16 + 1 * b.val; omega
  | ⟨1, _⟩ => show win0_0.index t (1 : Fin 4) * 64 + 1 * cc.val = win0_1.index t (0 : Fin 2) * 64 + 1 * cc.val; omega
  | ⟨2, _⟩ => show win0_0.index t (2 : Fin 4) * 16 + 1 * r.val = 16 + r.val; omega
  | ⟨3, _⟩ => show win0_0.index t (3 : Fin 4) * 64 + 1 * (16 + w.val) = 16 + w.val; omega

/-- An index of the output array lies in point `t`'s block iff each coordinate is in the block's range. -/
theorem mem_blk (t : Fin cfg0.N) (i : S2048x16.Idx) :
    i ∈ ((cfg0.win 1).blk t).view.set ↔ ∀ a : Fin 2, win0_1.index t a * S64x16.size a ≤ (i a).val ∧ (i a).val < win0_1.index t a * S64x16.size a + S64x16.size a := by
  show i ∈ ((View.whole main_v0).slice (win0_1.rect t)).set ↔ _
  rw [View.set_slice_whole, Rect.mem_set_unit]
  exact Iff.rfl

/-- Every entry `(c, b)` of the output array lies in the block of point `c / 64`. -/
theorem cover (i : S2048x16.Idx) : ∃ t : Fin cfg0.N, (cfg0.win 1).flush t = true ∧ i ∈ ((cfg0.win 1).blk t).view.set := by
  have h0 : (i 0).val < 2048 := (i 0).isLt
  have h1 : (i 1).val < 16 := (i 1).isLt
  have hN : grid0.N = 32 := N_0
  refine ⟨⟨(i 0).val / 64, by show (i 0).val / 64 < grid0.N; omega⟩, flush0_1 _, ?_⟩
  rw [mem_blk]
  obtain ⟨e0, e1, e2, e3, e4, e5⟩ := idx_facts ⟨(i 0).val / 64, by show (i 0).val / 64 < grid0.N; omega⟩
  intro a
  match a with
  | ⟨0, _⟩ => show win0_1.index _ (0 : Fin 2) * 64 ≤ (i 0).val ∧ (i 0).val < win0_1.index _ (0 : Fin 2) * 64 + 64; rw [e4]; show (i 0).val / 64 * 64 ≤ (i 0).val ∧ (i 0).val < (i 0).val / 64 * 64 + 64; omega
  | ⟨1, _⟩ => show win0_1.index _ (1 : Fin 2) * 16 ≤ (i 1).val ∧ (i 1).val < win0_1.index _ (1 : Fin 2) * 16 + 16; rw [e5]; omega

/-- After the pooling region its output array holds the channel-major pooled means of the input array. -/
theorem final (c : Dev nD) : (dat0 (F := Ideal) V c).arrAt 1 cfg0.N = pooledT (V c main_arg0) :=
  (dat0 V c).arrAt_eq_of_cover 1 _ (fun t _ => flushed_eq V c t) cover

end Cert.PoolValue

end
-- ==== Proof.MlpValue.lean ====
/-
  The second kernel region, the per-block perceptron, read as one function of the three arrays it is given.

  The region's grid has 16 points.  Point `t` is handed the whole array of pooled means `y` [16, 2048], block `t` of
  the first weights `W1` [16, 128, 2048] and block `t` of the second weights `W2` [16, 2048, 128], and writes block
  `t` of the output [16, 16, 2048].  Its body computes, for a batch entry `b` and a channel `c`,

      logistic (Σ_k max (Σ_c' y(b, c') · W1(t, k, c')) 0 · W2(t, c, k)):

  the two matrix products accumulate into zero, so each is the plain sum over the contracted axis; the roundings to
  the narrower format are the identity on the extended reals; the transposes and the casts that drop or add the leading
  unit axis only rename indices.  The 16 blocks tile the output array, so after the region it holds the attention
  weights `Cert.Spec.attArr` of the three arrays as the region found them, whatever those are.
-/
import proofs.«167519_j57028575756391_1_alg».proof.Proof.Gen.KernelIdeal.Frame
import proofs.«167519_j57028575756391_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.MlpValue

open Cert.KernelIdeal Cert.KernelIdeal.Gen Idealize.ShloMosaic Idealize.ShloMosaic.TcCoe Idealize.SL.Sem
open Idealize.ShloMosaic.ValueIdx
open Idealize.ShloMosaic.Pipeline (Dat)

/-! ## The two matrix products at an index -/

/-- The first product's left operand is read at the output's row … -/
theorem lhsA_0 (i : S16x128.Idx) (q : dot_S16x2048_S2048x128_S16x128_1_0_0_1_n_n.contr.Idx) :
    (dot_S16x2048_S2048x128_S16x128_1_0_0_1_n_n.lhsIdx i q 0).val = (i 0).val := by
  unfold DotDims.lhsIdx
  rw [dif_neg (show ¬(0 : Fin S16x2048.rank) ∈ dot_S16x2048_S2048x128_S16x128_1_0_0_1_n_n.lhsBatch by decide), dif_pos (show (0 : Fin S16x2048.rank) ∈ dot_S16x2048_S2048x128_S16x128_1_0_0_1_n_n.lhsNonContracting by decide)]
  rfl
/-- … and at the contraction index; -/
theorem lhsA_1 (i : S16x128.Idx) (q : dot_S16x2048_S2048x128_S16x128_1_0_0_1_n_n.contr.Idx) :
    (dot_S16x2048_S2048x128_S16x128_1_0_0_1_n_n.lhsIdx i q 1).val = (q ⟨0, by decide⟩).val :=
  dot_S16x2048_S2048x128_S16x128_1_0_0_1_n_n.lhsIdx_val_of_single rfl i q
/-- its right operand at the contraction index … -/
theorem rhsA_0 (i : S16x128.Idx) (q : dot_S16x2048_S2048x128_S16x128_1_0_0_1_n_n.contr.Idx) :
    (dot_S16x2048_S2048x128_S16x128_1_0_0_1_n_n.rhsIdx i q 0).val = (q ⟨0, by decide⟩).val :=
  dot_S16x2048_S2048x128_S16x128_1_0_0_1_n_n.rhsIdx_val_of_single rfl i q
/-- … and at the output's column. -/
theorem rhsA_1 (i : S16x128.Idx) (q : dot_S16x2048_S2048x128_S16x128_1_0_0_1_n_n.contr.Idx) :
    (dot_S16x2048_S2048x128_S16x128_1_0_0_1_n_n.rhsIdx i q 1).val = (i 1).val := by
  unfold DotDims.rhsIdx
  rw [dif_neg (show ¬(1 : Fin S2048x128.rank) ∈ dot_S16x2048_S2048x128_S16x128_1_0_0_1_n_n.rhsBatch by decide), dif_pos (show (1 : Fin S2048x128.rank) ∈ dot_S16x2048_S2048x128_S16x128_1_0_0_1_n_n.rhsNonContracting by decide)]
  rfl

/-- The first product into zero, [16, 2048] × [2048, 128], at `(b, k)`: the sum over the 2048 channels. -/
theorem dotA_apply (l : FVec Ideal S16x2048 .bf16) (r : FVec Ideal S2048x128 .bf16) (b : Fin 16) (k : Fin 128) :
    matmul dot_S16x2048_S2048x128_S16x128_1_0_0_1_n_n none l r (constant (F := Ideal) S16x128 .f32 0x00000000#32) (ix2 b k)
      = ∑ c' : Fin 2048, l (ix2 b c') * r (ix2 c' k) := by
  refine (Ideal.matmul_constant_zero_apply dot_S16x2048_S2048x128_S16x128_1_0_0_1_n_n none l r (ix2 b k)).trans ?_
  rw [← Equiv.sum_comp (contrEquiv1 dot_S16x2048_S2048x128_S16x128_1_0_0_1_n_n 2048 rfl rfl).symm]
  refine Finset.sum_congr rfl fun c' _ => ?_
  have hk := contrEquiv1_symm_val dot_S16x2048_S2048x128_S16x128_1_0_0_1_n_n 2048 rfl rfl c'
  have el : dot_S16x2048_S2048x128_S16x128_1_0_0_1_n_n.lhsIdx (ix2 b k) ((contrEquiv1 dot_S16x2048_S2048x128_S16x128_1_0_0_1_n_n 2048 rfl rfl).symm c') = ix2 b c' := funext fun a => Fin.ext (by
    match a with
    | ⟨0, _⟩ => exact lhsA_0 _ _
    | ⟨1, _⟩ => exact (lhsA_1 _ _).trans hk)
  have er : dot_S16x2048_S2048x128_S16x128_1_0_0_1_n_n.rhsIdx (ix2 b k) ((contrEquiv1 dot_S16x2048_S2048x128_S16x128_1_0_0_1_n_n 2048 rfl rfl).symm c') = ix2 c' k := funext fun a => Fin.ext (by
    match a with
    | ⟨0, _⟩ => exact (rhsA_0 _ _).trans hk
    | ⟨1, _⟩ => exact rhsA_1 _ _)
  rw [el, er]

/-- The second product's left operand is read at the output's row … -/
theorem lhsB_0 (i : S16x2048.Idx) (q : dot_S16x128_S128x2048_S16x2048_1_0_0_1_n_n.contr.Idx) :
    (dot_S16x128_S128x2048_S16x2048_1_0_0_1_n_n.lhsIdx i q 0).val = (i 0).val := by
  unfold DotDims.lhsIdx
  rw [dif_neg (show ¬(0 : Fin S16x128.rank) ∈ dot_S16x128_S128x2048_S16x2048_1_0_0_1_n_n.lhsBatch by decide), dif_pos (show (0 : Fin S16x128.rank) ∈ dot_S16x128_S128x2048_S16x2048_1_0_0_1_n_n.lhsNonContracting by decide)]
  rfl
/-- … and at the contraction index; -/
theorem lhsB_1 (i : S16x2048.Idx) (q : dot_S16x128_S128x2048_S16x2048_1_0_0_1_n_n.contr.Idx) :
    (dot_S16x128_S128x2048_S16x2048_1_0_0_1_n_n.lhsIdx i q 1).val = (q ⟨0, by decide⟩).val :=
  dot_S16x128_S128x2048_S16x2048_1_0_0_1_n_n.lhsIdx_val_of_single rfl i q
/-- its right operand at the contraction index … -/
theorem rhsB_0 (i : S16x2048.Idx) (q : dot_S16x128_S128x2048_S16x2048_1_0_0_1_n_n.contr.Idx) :
    (dot_S16x128_S128x2048_S16x2048_1_0_0_1_n_n.rhsIdx i q 0).val = (q ⟨0, by decide⟩).val :=
  dot_S16x128_S128x2048_S16x2048_1_0_0_1_n_n.rhsIdx_val_of_single rfl i q
/-- … and at the output's column. -/
theorem rhsB_1 (i : S16x2048.Idx) (q : dot_S16x128_S128x2048_S16x2048_1_0_0_1_n_n.contr.Idx) :
    (dot_S16x128_S128x2048_S16x2048_1_0_0_1_n_n.rhsIdx i q 1).val = (i 1).val := by
  unfold DotDims.rhsIdx
  rw [dif_neg (show ¬(1 : Fin S128x2048.rank) ∈ dot_S16x128_S128x2048_S16x2048_1_0_0_1_n_n.rhsBatch by decide), dif_pos (show (1 : Fin S128x2048.rank) ∈ dot_S16x128_S128x2048_S16x2048_1_0_0_1_n_n.rhsNonContracting by decide)]
  rfl

/-- The second product into zero, [16, 128] × [128, 2048], at `(b, c)`: the sum over the 128 hidden units. -/
theorem dotB_apply (l : FVec Ideal S16x128 .bf16) (r : FVec Ideal S128x2048 .bf16) (b : Fin 16) (cc : Fin 2048) :
    matmul dot_S16x128_S128x2048_S16x2048_1_0_0_1_n_n none l r (constant (F := Ideal) S16x2048 .f32 0x00000000#32) (ix2 b cc)
      = ∑ k : Fin 128, l (ix2 b k) * r (ix2 k cc) := by
  refine (Ideal.matmul_constant_zero_apply dot_S16x128_S128x2048_S16x2048_1_0_0_1_n_n none l r (ix2 b cc)).trans ?_
  rw [← Equiv.sum_comp (contrEquiv1 dot_S16x128_S128x2048_S16x2048_1_0_0_1_n_n 128 rfl rfl).symm]
  refine Finset.sum_congr rfl fun k _ => ?_
  have hk := contrEquiv1_symm_val dot_S16x128_S128x2048_S16x2048_1_0_0_1_n_n 128 rfl rfl k
  have el : dot_S16x128_S128x2048_S16x2048_1_0_0_1_n_n.lhsIdx (ix2 b cc) ((contrEquiv1 dot_S16x128_S128x2048_S16x2048_1_0_0_1_n_n 128 rfl rfl).symm k) = ix2 b k := funext fun a => Fin.ext (by
    match a with
    | ⟨0, _⟩ => exact lhsB_0 _ _
    | ⟨1, _⟩ => exact (lhsB_1 _ _).trans hk)
  have er : dot_S16x128_S128x2048_S16x2048_1_0_0_1_n_n.rhsIdx (ix2 b cc) ((contrEquiv1 dot_S16x128_S128x2048_S16x2048_1_0_0_1_n_n 128 rfl rfl).symm k) = ix2 k cc := funext fun a => Fin.ext (by
    match a with
    | ⟨0, _⟩ => exact (rhsB_0 _ _).trans hk
    | ⟨1, _⟩ => exact rhsB_1 _ _)
  rw [el, er]

/-! ## The body's payload at an index -/

/-- What the body stores, at `(u, b, c)` of its [1, 16, 2048] block: the logistic of the second layer's sum over the
    128 hidden units, each the positive part of the first layer's sum over the 2048 channels. -/
theorem pay_apply (y : Vec Ideal S16x2048 .f32) (a1 : Vec Ideal S1x128x2048 .f32) (a2 : Vec Ideal S1x2048x128 .f32)
    (u : Fin 1) (b : Fin 16) (cc : Fin 2048) :
    k1_pay1 y a1 a2 (ix3 u b cc)
      = Ideal.logistic (∑ k : Fin 128, max (∑ c' : Fin 2048, y (ix2 b c') * a1 (ix3 0 k c')) 0 * a2 (ix3 0 cc k)) := by
  unfold k1_pay1
  refine (shapeCast_ab_1ab_apply _ shapeCasts_S16x2048_S1x16x2048 u b cc).trans ?_
  refine congrArg Ideal.logistic ?_
  refine (dotB_apply _ _ b cc).trans ?_
  refine Finset.sum_congr rfl fun k _ => ?_
  refine congrArg₂ (· * ·) ?_ ?_
  · refine (truncf_apply (ψ := .bf16) _ bitsLt_bf16_f32 _).trans ?_
    refine (maximumf_apply _ _ _).trans ?_
    refine congrArg₂ max ?_ Cert.Spec.ofBits_zero
    refine (dotA_apply _ _ b k).trans ?_
    refine Finset.sum_congr rfl fun c' _ => ?_
    refine congrArg₂ (· * ·) ?_ ?_
    · exact (truncf_apply (ψ := .bf16) _ bitsLt_bf16_f32 _).trans (congrFun (shapeCast_self y _) _)
    · exact (transpose_ix2_apply _ _ c' k).trans ((truncf_apply (ψ := .bf16) _ bitsLt_bf16_f32 _).trans (shapeCast_1ab_ab_apply a1 _ k c'))
  · exact (transpose_ix2_apply _ _ k cc).trans ((truncf_apply (ψ := .bf16) _ bitsLt_bf16_f32 _).trans (shapeCast_1ab_ab_apply a2 _ cc k))

/-- The same with the three blocks named as parts of three whole arrays: when the first block is the array `Y`, and the
    other two are slab `p` of the arrays `W1` and `W2`, the body stores the attention weight of block `p`. -/
theorem pay_eq_att (y : Vec Ideal S16x2048 .f32) (a1 : Vec Ideal S1x128x2048 .f32) (a2 : Vec Ideal S1x2048x128 .f32)
    (Y : S16x2048.Idx → EReal) (W1 : S16x128x2048.Idx → EReal) (W2 : S16x2048x128.Idx → EReal) (p : Fin 16)
    (h0 : ∀ (b : Fin 16) (c' : Fin 2048), y (ix2 b c') = Y (ix2 b c'))
    (h1 : ∀ (k : Fin 128) (c' : Fin 2048), a1 (ix3 0 k c') = W1 (ix3 p k c'))
    (h2 : ∀ (cc : Fin 2048) (k : Fin 128), a2 (ix3 0 cc k) = W2 (ix3 p cc k))
    (u : Fin 1) (b : Fin 16) (cc : Fin 2048) :
    k1_pay1 y a1 a2 (ix3 u b cc) = Cert.Spec.att Y W1 W2 p b cc := by
  refine (pay_apply y a1 a2 u b cc).trans ?_
  show _ = Ideal.logistic (∑ k : Fin 128, max (∑ c' : Fin 2048, Y (ix2 b c') * W1 (ix3 p k c')) 0 * W2 (ix3 p cc k))
  refine congrArg Ideal.logistic (Finset.sum_congr rfl fun k _ => ?_)
  refine congrArg₂ (· * ·) (congrArg₂ max (Finset.sum_congr rfl fun c' _ => ?_) rfl) (h2 cc k)
  exact congrArg₂ (· * ·) (h0 b c') (h1 k c')

/-! ## From blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 16 grid points: the pooled means are handed over whole at every point,
    and each of the two weight arrays and the output move along their leading axis with the point, one block a point. -/
theorem idx_facts : ∀ t : Fin cfg1.N,
    win1_0.index t (0 : Fin 2) = 0 ∧ win1_0.index t (1 : Fin 2) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- The grid point as a block number along the leading axis of the weights and of the output. -/
abbrev blockOf (t : Fin cfg1.N) : Fin 16 := t.cast N_1

/-- The pooled means' block at any point is the whole array. -/
theorem blk0_apply (c : Dev nD) (t : Fin cfg1.N) (b : Fin 16) (c' : Fin 2048) :
    (iblk1 V c 0 t : Vec Ideal S16x2048 .f32) (ix2 b c') = (V c main_v1 : S16x2048.Idx → Elt Ideal .f32) (ix2 b c') := by
  obtain ⟨e0, e1, -⟩ := idx_facts t
  show (V c main_v1 : S16x2048.Idx → Elt Ideal .f32) (((cfg1.win 0).blk t).view.emb (ix2 b c')) = _
  refine congrArg (V c main_v1 : S16x2048.Idx → Elt Ideal .f32) (funext fun a => Fin.ext ?_)
  match a with
  | ⟨0, _⟩ => show win1_0.index t (0 : Fin 2) * 16 + 1 * b.val = b.val; omega
  | ⟨1, _⟩ => show win1_0.index t (1 : Fin 2) * 2048 + 1 * c'.val = c'.val; omega

/-- The first weights' block at point `t` is their slab `t`. -/
theorem blk1_apply (c : Dev nD) (t : Fin cfg1.N) (k : Fin 128) (c' : Fin 2048) :
    (iblk1 V c 1 t : Vec Ideal S1x128x2048 .f32) (ix3 0 k c')
      = (V c main_arg1 : S16x128x2048.Idx → Elt Ideal .f32) (ix3 (blockOf t) k c') := by
  obtain ⟨-, -, e0, e1, e2, -⟩ := idx_facts t
  show (V c main_arg1 : S16x128x2048.Idx → Elt Ideal .f32) (((cfg1.win 1).blk t).view.emb (ix3 0 k c')) = _
  refine congrArg (V c main_arg1 : S16x128x2048.Idx → Elt Ideal .f32) (funext fun a => Fin.ext ?_)
  match a with
  | ⟨0, _⟩ => show win1_1.index t (0 : Fin 3) * 1 + 1 * 0 = t.val; omega
  | ⟨1, _⟩ => show win1_1.index t (1 : Fin 3) * 128 + 1 * k.val = k.val; omega
  | ⟨2, _⟩ => show win1_1.index t (2 : Fin 3) * 2048 + 1 * c'.val = c'.val; omega

/-- The second weights' block at point `t` is their slab `t`. -/
theorem blk2_apply (c : Dev nD) (t : Fin cfg1.N) (cc : Fin 2048) (k : Fin 128) :
    (iblk1 V c 2 t : Vec Ideal S1x2048x128 .f32) (ix3 0 cc k)
      = (V c main_arg2 : S16x2048x128.Idx → Elt Ideal .f32) (ix3 (blockOf t) cc k) := by
  obtain ⟨-, -, -, -, -, e0, e1, e2, -⟩ := idx_facts t
  show (V c main_arg2 : S16x2048x128.Idx → Elt Ideal .f32) (((cfg1.win 2).blk t).view.emb (ix3 0 cc k)) = _
  refine congrArg (V c main_arg2 : S16x2048x128.Idx → Elt Ideal .f32) (funext fun a => Fin.ext ?_)
  match a with
  | ⟨0, _⟩ => show win1_2.index t (0 : Fin 3) * 1 + 1 * 0 = t.val; omega
  | ⟨1, _⟩ => show win1_2.index t (1 : Fin 3) * 2048 + 1 * cc.val = cc.val; omega
  | ⟨2, _⟩ => show win1_2.index t (2 : Fin 3) * 128 + 1 * k.val = k.val; omega

/-- An element `(u, b, c)` of the output's block at point `t` sits in the array at `(t, b, c)`. -/
theorem out_emb (t : Fin cfg1.N) (u : Fin 1) (b : Fin 16) (cc : Fin 2048) :
    (((cfg1.win 3).blk t).view.emb (ix3 u b cc) : S16x16x2048.Idx) = ix3 (blockOf t) b cc := by
  obtain ⟨-, -, -, -, -, -, -, -, e0, e1, e2⟩ := idx_facts t
  have hu : u.val = 0 := by omega
  refine funext fun a => Fin.ext ?_
  match a with
  | ⟨0, _⟩ => show win1_3.index t (0 : Fin 3) * 1 + 1 * u.val = t.val; omega
  | ⟨1, _⟩ => show win1_3.index t (1 : Fin 3) * 16 + 1 * b.val = b.val; omega
  | ⟨2, _⟩ => show win1_3.index t (2 : Fin 3) * 2048 + 1 * cc.val = cc.val; omega

/-- WHAT POINT `t` WRITES BACK is block `t` of the attention weights of the three arrays as the region finds them. -/
theorem flushed_eq (c : Dev nD) (t : Fin cfg1.N) :
    (dat1 (F := Ideal) V c).flushed 3 t
      = ((cfg1.win 3).blk t).view.read (Elt Ideal) (Cert.Spec.attArr (V c main_v1) (V c main_arg1) (V c main_arg2)) := by
  show (cfg1.win 3).cut (grid1.coords t) ((dat1 (F := Ideal) V c).after 3 t) = _
  rw [after1_3]
  unfold out1_3
  rw [View.canon_unit_zero hz3]
  simp only [View.ld_unit_zero (S := S16x2048) hz2, View.ld_unit_zero (S := S1x128x2048) hz3, View.ld_unit_zero (S := S1x2048x128) hz3]
  funext j
  obtain ⟨u, b, cc, rfl⟩ : ∃ (u : Fin 1) (b : Fin 16) (cc : Fin 2048), j = ix3 u b cc := ⟨j 0, j 1, j 2, eq_ix3 j⟩
  show k1_pay1 (iblk1 V c 0 t) (iblk1 V c 1 t) (iblk1 V c 2 t) (ix3 u b cc)
    = Cert.Spec.attArr (V c main_v1) (V c main_arg1) (V c main_arg2) (((cfg1.win 3).blk t).view.emb (ix3 u b cc))
  rw [out_emb t u b cc]
  show _ = Cert.Spec.att (V c main_v1) (V c main_arg1) (V c main_arg2) (blockOf t) b cc
  exact pay_eq_att (iblk1 V c 0 t) (iblk1 V c 1 t) (iblk1 V c 2 t) (V c main_v1) (V c main_arg1) (V c main_arg2) (blockOf t)
    (blk0_apply V c t) (blk1_apply V c t) (blk2_apply V c t) u b cc

/-- An index of the output array is in point `t`'s block iff each coordinate is in the block's range on its axis. -/
theorem mem_blk (t : Fin cfg1.N) (i : S16x16x2048.Idx) :
    i ∈ ((cfg1.win 3).blk t).view.set ↔ ∀ a : Fin 3, win1_3.index t a * S1x16x2048.size a ≤ (i a).val ∧ (i a).val < win1_3.index t a * S1x16x2048.size a + S1x16x2048.size a := by
  show i ∈ ((View.whole main_v2).slice (win1_3.rect t)).set ↔ _
  rw [View.set_slice_whole, Rect.mem_set_unit]
  exact Iff.rfl

/-- The 16 blocks tile the output array: `(p, b, c)` lies in the block of point `p`. -/
theorem cover (i : S16x16x2048.Idx) :
    ∃ t : Fin cfg1.N, (cfg1.win 3).flush t = true ∧ i ∈ ((cfg1.win 3).blk t).view.set := by
  have h0 : (i 0).val < 16 := (i 0).isLt
  have h1 : (i 1).val < 16 := (i 1).isLt
  have h2 : (i 2).val < 2048 := (i 2).isLt
  have hN : cfg1.N = 16 := N_1
  obtain ⟨t, ht⟩ : ∃ t : Fin cfg1.N, t.val = (i 0).val := ⟨⟨(i 0).val, by rw [hN]; exact h0⟩, rfl⟩
  refine ⟨t, flush1_3 t, ?_⟩
  rw [mem_blk]
  obtain ⟨-, -, -, -, -, -, -, -, e0, e1, e2⟩ := idx_facts t
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 16 ≤ (i 1).val ∧ (i 1).val < win1_3.index t (1 : Fin 3) * 16 + 16
    omega
  | ⟨2, _⟩ =>
    show win1_3.index t (2 : Fin 3) * 2048 ≤ (i 2).val ∧ (i 2).val < win1_3.index t (2 : Fin 3) * 2048 + 2048
    omega

/-- THE OUTPUT ARRAY after the region: the attention weights of the pooled means and the two weight arrays as the
    region found them. -/
theorem final (c : Dev nD) :
    (dat1 (F := Ideal) V c).arrAt 3 cfg1.N = Cert.Spec.attArr (V c main_v1) (V c main_arg1) (V c main_arg2) :=
  (dat1 (F := Ideal) V c).arrAt_eq_of_cover 3 _ (fun t _ => flushed_eq V c t) cover

end Cert.MlpValue

end
-- ==== Proof.KernelValue.lean ====
/-
  The result array of the idealized kernel program, as a function of the argument arrays.

  The chain of boundaries of the run is read back from the end: the result buffer is the host broadcast of the
  perceptron region's output array; that array is the attention weights computed from the region's three input
  arrays; of these the two weight arrays are the arguments as launched, and the first is the host transpose of the
  pooling region's output array, which holds the pooled means of the input array channel-major.  Transposed, they
  are the pooled means batch-major, so the result is the specification's function of the three arguments.
-/
import proofs.«167519_j57028575756391_1_alg».proof.Proof.KernelRun
import proofs.«167519_j57028575756391_1_alg».proof.Proof.PoolValue
import proofs.«167519_j57028575756391_1_alg».proof.Proof.MlpValue
import proofs.«167519_j57028575756391_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal

set_option maxRecDepth 16384

noncomputable section

namespace Cert.KernelValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The result buffer is the broadcast of the perceptron region's output array. -/
theorem tail_eq (c : Dev nD) : W4 m ρ c (Proc.devRef .tc main_v3)
    = broadcastInDim S16x16x2048x1x1 ![0, 1, 2] bcast_S16x16x2048_S16x16x2048x1x1_0_1_2 (W3 m ρ c (Proc.devRef .tc main_v2)) := by
  show StableHlo.after hostOps2 (W3 m ρ c) (Proc.devRef .tc main_v3) = _
  after_results

/-- The perceptron region's first input array is the transpose of the pooling region's output array. -/
theorem mid_eq (c : Dev nD) : V2 m ρ c main_v1
    = transpose S16x2048 [1, 0] (W1 m ρ c (Proc.devRef .tc main_v0)) transposes_S2048x16_S16x2048_1_0 := by
  show StableHlo.after hostOps1 (W1 m ρ c) (Proc.devRef .tc main_v1) = _
  after_results

/-- The weight arrays reach the perceptron region as launched: neither the pooling region nor the transpose writes them. -/
theorem arg1_eq (c : Dev nD) : V2 m ρ c main_arg1 = m ((c.tc : Thread nD τ).loc main_arg1) := by
  show StableHlo.after hostOps1 (W1 m ρ c) (Proc.devRef .tc main_arg1) = _
  after_results
  exact W1_of_ne m ρ c main_arg1 (by decide)

theorem arg2_eq (c : Dev nD) : V2 m ρ c main_arg2 = m ((c.tc : Thread nD τ).loc main_arg2) := by
  show StableHlo.after hostOps1 (W1 m ρ c) (Proc.devRef .tc main_arg2) = _
  after_results
  exact W1_of_ne m ρ c main_arg2 (by decide)

/-- The channel-major pooled means, transposed, are the pooled means batch-major. -/
theorem transpose_pooledT (x : S16x2048x64x64.Idx → EReal) :
    transpose S16x2048 [1, 0] (Cert.PoolValue.pooledT x) transposes_S2048x16_S16x2048_1_0 = Cert.Spec.pooledArr x := by
  funext j
  obtain ⟨b, cc, rfl⟩ : ∃ (b : Fin 16) (cc : Fin 2048), j = ix2 b cc := ⟨j 0, j 1, eq_ix2 j⟩
  exact transpose_ix2_apply _ _ b cc

/-- The attention weights broadcast to [16, 16, 2048, 1, 1] are the specification's result array. -/
theorem broadcast_attArr (x : S16x2048x64x64.Idx → EReal) (w1 : S16x128x2048.Idx → EReal) (w2 : S16x2048x128.Idx → EReal) :
    broadcastInDim S16x16x2048x1x1 ![0, 1, 2] bcast_S16x16x2048_S16x16x2048x1x1_0_1_2 (Cert.Spec.attArr (Cert.Spec.pooledArr x) w1 w2)
      = Cert.Spec.result x w1 w2 := by
  funext i
  obtain ⟨p, b, cc, u, v, rfl⟩ : ∃ (p b : Fin 16) (cc : Fin 2048) (u v : Fin 1), i = ix5 p b cc u v :=
    ⟨i 0, i 1, i 2, i 3, i 4, eq_ix5 i⟩
  refine broadcastInDim_apply _ bcast_S16x16x2048_S16x16x2048x1x1_0_1_2 _ (ix5 p b cc u v) (ix3 p b cc) (fun a => ?_)
  match a with
  | ⟨0, _⟩ => show p.val = if (16 : Nat) = 1 then 0 else p.val; rw [if_neg (by decide)]
  | ⟨1, _⟩ => show b.val = if (16 : Nat) = 1 then 0 else b.val; rw [if_neg (by decide)]
  | ⟨2, _⟩ => show cc.val = if (2048 : Nat) = 1 then 0 else cc.val; rw [if_neg (by decide)]

/-- The result buffer at the end of the run is the specification's function of the launched arguments. -/
theorem result_eq (c : Dev nD) : W4 m ρ c (Proc.devRef .tc main_v3)
    = Cert.Spec.result (m ((c.tc : Thread nD τ).loc main_arg0)) (m ((c.tc : Thread nD τ).loc main_arg1)) (m ((c.tc : Thread nD τ).loc main_arg2)) := by
  rw [tail_eq, W3_arr m ρ c 3, Cert.MlpValue.final (V2 m ρ) c, mid_eq, W1_arr m ρ c 1, Cert.PoolValue.final (V0 m ρ) c,
    arg1_eq, arg2_eq, transpose_pooledT]
  exact broadcast_attArr _ _ _

/-- Every weakly fair execution of the idealized kernel program terminates, nothing faulting, with the result buffer
    at the specification's function of the arguments and the arguments unchanged. -/
theorem run : θ_run defs (onTc (τ := τ) (main (F := Ideal))) ⟨m, fun _ => 0, ρ⟩ (fun r => ∀ c : Dev nD,
      r.2.mem ((c.tc : Thread nD τ).loc main_v3)
        = Cert.Spec.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (Cert.KernelRun.run_result m ρ)

end Cert.KernelValue

end
-- ==== Proof.RefValue.lean ====
/-
  The reference program computes the specification's result array, entry by entry.

  The reference takes the 16 × 16 patch of each 64 × 64 feature map at rows and columns 16..31, sums it over its two
  axes starting from zero, and divides by 256: the pooled mean, since dividing by 256 is multiplying by 1/256 on the
  extended reals. The sum over the indices of the [16, 2048, 16, 16] slice whose batch and channel coordinates are
  `(b, c)` is the double sum over the two patch coordinates, because such an index is `(b, c, r, w)` with `r` and `w`
  free: a bijection with pairs `(r, w)`. It then contracts the pooled means with `W1` over the channel, transposes
  the result so that the block comes first, takes the maximum with zero (the hidden layer), contracts with `W2` over
  the hidden coordinate, batched in the block, and applies `1 / (1 + e^(-z))` spelt as negate, exponential, add one,
  divide one by it, which is the logistic function by definition. The result is that array with two unit axes added.
-/
import proofs.«167519_j57028575756391_1_alg».proof.Proof.Gen.ReferenceIdeal.Read
import proofs.«167519_j57028575756391_1_alg».proof.Proof.Spec
import Idealize.ShloMosaic.Lib.ValueIdx
import Idealize.ShloMosaic.Lib.IdealHost
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx

/-! ## The sum over the two patch axes -/

/-- The indices of a [16, 2048, 16, 16] array whose batch and channel coordinates are `(b, c)` are the
    `(b, c, r, w)` with `r` and `w` free, so a sum over them is the double sum over `r` and `w`. -/
theorem sum_patch (x : S16x2048x16x16.Idx → EReal) (b : Fin 16) (c : Fin 2048) :
    ∑ i ∈ Finset.univ.filter (fun i => reducesTo_S16x2048x16x16_S16x2048_d2_3.drop i = ix2 b c), x i
      = ∑ r : Fin 16, ∑ w : Fin 16, x (ix4 b c r w) := by
  refine Eq.trans ?_ (Finset.sum_product' Finset.univ Finset.univ (fun (r w : Fin 16) => x (ix4 b c r w)))
  refine Finset.sum_nbij'
    (fun i => ((⟨(i 2).val, (i 2).isLt⟩ : Fin 16), (⟨(i 3).val, (i 3).isLt⟩ : Fin 16)))
    (fun p => ix4 b c p.1 p.2) ?_ ?_ ?_ ?_ ?_
  · intro i _; exact Finset.mem_product.2 ⟨Finset.mem_univ _, Finset.mem_univ _⟩
  · intro p _
    refine Finset.mem_filter.2 ⟨Finset.mem_univ _, ?_⟩
    funext a; refine Fin.ext ?_
    match a with
    | ⟨0, _⟩ => exact reducesTo_S16x2048x16x16_S16x2048_d2_3.drop_apply_val_of_eq _ 0 0
    | ⟨1, _⟩ => exact reducesTo_S16x2048x16x16_S16x2048_d2_3.drop_apply_val_of_eq _ 1 1
  · intro i hi
    have hj := (Finset.mem_filter.1 hi).2
    have h0 : (i 0).val = b.val := by
      rw [← reducesTo_S16x2048x16x16_S16x2048_d2_3.drop_apply_val_of_eq i 0 0, hj]
    have h1 : (i 1).val = c.val := by
      rw [← reducesTo_S16x2048x16x16_S16x2048_d2_3.drop_apply_val_of_eq i 1 1, hj]
    funext a; refine Fin.ext ?_
    match a with
    | ⟨0, _⟩ => exact h0.symm
    | ⟨1, _⟩ => exact h1.symm
    | ⟨2, _⟩ => rfl
    | ⟨3, _⟩ => rfl
  · intro p _; rfl
  · intro i hi
    have hj := (Finset.mem_filter.1 hi).2
    have h0 : (i 0).val = b.val := by
      rw [← reducesTo_S16x2048x16x16_S16x2048_d2_3.drop_apply_val_of_eq i 0 0, hj]
    have h1 : (i 1).val = c.val := by
      rw [← reducesTo_S16x2048x16x16_S16x2048_d2_3.drop_apply_val_of_eq i 1 1, hj]
    refine congrArg x (funext fun a => Fin.ext ?_)
    match a with
    | ⟨0, _⟩ => exact h0
    | ⟨1, _⟩ => exact h1
    | ⟨2, _⟩ => rfl
    | ⟨3, _⟩ => rfl

/-! ## The pooled mean -/

/-- The slice reads the feature map at rows and columns `16 + r`, `16 + w`. -/
theorem slice_idx (b : Fin 16) (c : Fin 2048) (r w : Fin 16) :
    idx_main_v0 (ix4 b c r w) = ix4 b c (Cert.Spec.patch r) (Cert.Spec.patch w) :=
  funext fun a => Fin.ext (by
    match a with
    | ⟨0, _⟩ => rfl
    | ⟨1, _⟩ => rfl
    | ⟨2, _⟩ => rfl
    | ⟨3, _⟩ => rfl)

/-- The sum of the patch from zero, divided by 256, is the pooled mean. -/
theorem pooled_eq (x0 : (⟨S16x2048x64x64, .f32⟩ : BufTy).Contents (Elt Ideal)) (b : Fin 16) (c : Fin 2048) :
    val_main_v3 (F := Ideal) x0 (ix2 b c) = Cert.Spec.pooled x0 b c := by
  rw [val_main_v3_apply, val_main_v2_apply, val_main_cst_0_apply]
  unfold val_main_v1
  rw [hostReduceAdd_apply, val_main_cst_apply]
  simp only [Ideal.hostDivf_def, Ideal.ofBits_def]
  rw [Cert.Spec.ofBits_256, Cert.Spec.div_256, Cert.Spec.ofBits_zero]
  unfold Ideal.hostReduceAdd
  rw [zero_add, sum_patch]
  unfold Cert.Spec.pooled
  refine congrArg (· * ((1 / 256 : ℝ) : EReal)) ?_
  refine Finset.sum_congr rfl fun r _ => Finset.sum_congr rfl fun w _ => ?_
  rw [val_main_v0_apply, slice_idx]

/-! ## The hidden layer -/

theorem lidx_v4 (b p : Fin 16) (k : Fin 128) (c : Fin 2048) : lidx_main_v4 (ix3 b p k) c = ix2 b c :=
  funext fun a => Fin.ext (by
    match a with
    | ⟨0, _⟩ => rfl
    | ⟨1, _⟩ => rfl)

theorem ridx_v4 (b p : Fin 16) (k : Fin 128) (c : Fin 2048) : ridx_main_v4 (ix3 b p k) c = ix3 p k c :=
  funext fun a => Fin.ext (by
    match a with
    | ⟨0, _⟩ => rfl
    | ⟨1, _⟩ => rfl
    | ⟨2, _⟩ => rfl)

theorem idx_v5 (p b : Fin 16) (k : Fin 128) : idx_main_v5 (ix3 p b k) = ix3 b p k :=
  funext fun a => Fin.ext (by
    match a with
    | ⟨0, _⟩ => rfl
    | ⟨1, _⟩ => rfl
    | ⟨2, _⟩ => rfl)

/-- The first contraction, transposed to put the block first, then `max · 0`: the hidden layer. -/
theorem hidden_eq (x0 : (⟨S16x2048x64x64, .f32⟩ : BufTy).Contents (Elt Ideal))
    (x1 : (⟨S16x128x2048, .f32⟩ : BufTy).Contents (Elt Ideal)) (p b : Fin 16) (k : Fin 128) :
    val_main_v6 (F := Ideal) x0 x1 (ix3 p b k) = Cert.Spec.hidden (Cert.Spec.pooledArr x0) x1 p b k := by
  rw [val_main_v6_apply, val_main_v5_apply, idx_v5, val_main_v4_apply, val_main_call0_v0_apply,
    val_main_call0_cst_apply]
  simp only [Ideal.maximumf_def, Ideal.ofBits_def]
  rw [Cert.Spec.ofBits_zero]
  unfold Cert.Spec.hidden
  refine congrArg (max · 0) ?_
  refine Finset.sum_congr rfl fun c _ => ?_
  rw [lidx_v4, ridx_v4, pooled_eq]
  rfl

/-! ## The attention weight -/

theorem lidx_v7 (p b : Fin 16) (c : Fin 2048) (k : Fin 128) : lidx_main_v7 (ix3 p b c) k = ix3 p b k :=
  funext fun a => Fin.ext (by
    match a with
    | ⟨0, _⟩ => rfl
    | ⟨1, _⟩ => rfl
    | ⟨2, _⟩ => rfl)

theorem ridx_v7 (p b : Fin 16) (c : Fin 2048) (k : Fin 128) : ridx_main_v7 (ix3 p b c) k = ix3 p c k :=
  funext fun a => Fin.ext (by
    match a with
    | ⟨0, _⟩ => rfl
    | ⟨1, _⟩ => rfl
    | ⟨2, _⟩ => rfl)

/-- The second contraction, then `1 / (1 + e^(-z))` spelt out: the logistic function of the contraction. -/
theorem att_eq (x0 : (⟨S16x2048x64x64, .f32⟩ : BufTy).Contents (Elt Ideal))
    (x1 : (⟨S16x128x2048, .f32⟩ : BufTy).Contents (Elt Ideal))
    (x2 : (⟨S16x2048x128, .f32⟩ : BufTy).Contents (Elt Ideal)) (p b : Fin 16) (c : Fin 2048) :
    val_main_v13 (F := Ideal) x0 x1 x2 (ix3 p b c) = Cert.Spec.att (Cert.Spec.pooledArr x0) x1 x2 p b c := by
  rw [val_main_v13_apply, val_main_v12_apply, val_main_cst_2_apply, val_main_v11_apply, val_main_v10_apply,
    val_main_cst_1_apply, val_main_v9_apply, val_main_v8_apply, val_main_v7_apply]
  simp only [Ideal.hostDivf_def, Ideal.addf_def, Ideal.hostUnary_exp_def, Ideal.hostNegf_def, Ideal.negf_def,
    Ideal.ofBits_def]
  rw [Cert.Spec.ofBits_one]
  unfold Cert.Spec.att Ideal.logistic
  refine congrArg (fun z => Ideal.div 1 (1 + Ideal.exp (-z))) ?_
  refine Finset.sum_congr rfl fun k _ => ?_
  rw [lidx_v7, ridx_v7, hidden_eq]

/-! ## The result -/

theorem idx_v14 (p b : Fin 16) (c : Fin 2048) (u v : Fin 1) : idx_main_v14 (ix5 p b c u v) = ix3 p b c :=
  funext fun a => Fin.ext (by
    match a with
    | ⟨0, _⟩ => rfl
    | ⟨1, _⟩ => rfl
    | ⟨2, _⟩ => rfl)

/-- The reference's value is the specification's result array. -/
theorem reference_eq (x0 : (⟨S16x2048x64x64, .f32⟩ : BufTy).Contents (Elt Ideal))
    (x1 : (⟨S16x128x2048, .f32⟩ : BufTy).Contents (Elt Ideal))
    (x2 : (⟨S16x2048x128, .f32⟩ : BufTy).Contents (Elt Ideal)) :
    val_main_v14 (F := Ideal) x0 x1 x2 = Cert.Spec.result x0 x1 x2 := by
  funext i
  obtain ⟨p, b, c, u, v, rfl⟩ : ∃ (p b : Fin 16) (c : Fin 2048) (u v : Fin 1), i = ix5 p b c u v :=
    ⟨i 0, i 1, i 2, i 3, i 4, eq_ix5 i⟩
  rw [val_main_v14_apply, idx_v14, att_eq]
  rfl

end Cert.RefValue

end
-- ==== Proof.lean ====
/-
  The certificate: the kernel program (a pooling call, a host transpose, a per-block perceptron call, a host
  broadcast) and its reference compute one function on the extended reals.

  Both end with the result array [16, 16, 2048, 1, 1] at the attention weights
  `att(p, b, c) = logistic (Σ_k max (Σ_c' y(b, c') · W1(p, k, c')) 0 · W2(p, c, k))` of the pooled means
  `y(b, c) = (Σ of the 256 entries of rows 16..31, columns 16..31 of x(b, c, ·, ·)) · 1/256`.
  The kernel sums each patch row over all 64 columns with the columns outside 16..31 masked to zero, then sums the 16
  rows, and multiplies by the f32 number 2⁻⁸; the reference sums the sliced patch over both axes at once and divides
  by 256.  A sum with zeros inserted, regrouped or reordered is the same sum in a commutative monoid, and dividing by
  256 is multiplying by its reciprocal at every extended real, so the two pooled means agree without any finiteness of
  the inputs.  The two matrix products are the same sums of products (rounding the operands to bf16 is the identity on
  the extended reals), and `logistic` is by definition `1 / (1 + e^(-z))`, which the reference spells out.
  The ideal pass rewrote nothing, so the idealized kernel is the kernel's own text read on the extended reals.
-/
import proofs.«167519_j57028575756391_1_alg».proof.Defs
import proofs.«167519_j57028575756391_1_alg».proof.Proof.Gen.Kernel
import proofs.«167519_j57028575756391_1_alg».proof.Proof.Gen.Kernel.Skeleton
import proofs.«167519_j57028575756391_1_alg».proof.Proof.Gen.Kernel.Launch
import proofs.«167519_j57028575756391_1_alg».proof.Proof.Gen.Kernel.Points
import proofs.«167519_j57028575756391_1_alg».proof.Proof.Gen.Kernel.Frame
import proofs.«167519_j57028575756391_1_alg».proof.Proof.Gen.KernelIdeal
import proofs.«167519_j57028575756391_1_alg».proof.Proof.Gen.KernelIdeal.Skeleton
import proofs.«167519_j57028575756391_1_alg».proof.Proof.Gen.KernelIdeal.Launch
import proofs.«167519_j57028575756391_1_alg».proof.Proof.Gen.KernelIdeal.Points
import proofs.«167519_j57028575756391_1_alg».proof.Proof.Gen.KernelIdeal.Frame
import proofs.«167519_j57028575756391_1_alg».proof.Proof.Gen.ReferenceIdeal
import proofs.«167519_j57028575756391_1_alg».proof.Proof.Gen.Pre_finite_inputs
import proofs.«167519_j57028575756391_1_alg».proof.Proof.Gen.ReferenceIdeal.Run
import proofs.«167519_j57028575756391_1_alg».proof.Proof.Gen.ReferenceIdeal.Read
import proofs.«167519_j57028575756391_1_alg».proof.Proof.KernelValue
import proofs.«167519_j57028575756391_1_alg».proof.Proof.RefValue

noncomputable section

namespace Cert.Proof

open Idealize.ShloMosaic Idealize.SL.Sem

/-- The word-level kernel program runs and leaves its arguments unchanged. -/
theorem frame_kernel [Cert.Kernel.Facts] [Cert.Pre_finite_inputs.Facts] : Cert.frame_Kernel :=
  fun m ρ _ => Cert.Kernel.Gen.frame m ρ

/-- So does the idealized kernel program. -/
theorem frame_kernelIdeal [Cert.KernelIdeal.Facts] [Cert.Pre_finite_inputs.Facts] : Cert.frame_KernelIdeal :=
  fun m ρ _ => Cert.KernelIdeal.Gen.frame m ρ

/-- The reference is a straight line of host operations: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The ideal pass rewrote no operation. -/
theorem preserves : Cert.preserves_Kernel_KernelIdeal := trivial

/-- From memories agreeing on the arguments both idealized programs end with the result array at the specification's
    function of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.RefValue.reference_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
